-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048 : Shape := ⟨1, ![2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x8192x2048 .f32) (main_arg1 : FVec F S2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S4x8192x2048 : Shape := ⟨3, ![4, 8192, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .hbm, ⟨5, _⟩ => ⟨S4x8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x2048_S32768x2048 : S4x8192x2048.ShapeCasts S32768x2048
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S32768x2048_S4x8192x2048 : S32768x2048.ShapeCasts S4x8192x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S32768x2048.size a
  hwx0_2 : ∀ i : grid0.Coords, EltTy.bits .f32 = 32 ∨ (Rect.block (s := S32768x2048) S1024x2048.size (cc0_transform_2 i) (hinb0_2 i)).WholeWords (EltTy.packing .f32)

variable [Facts₀]

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x8192x2048, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x1, .f32⟩
  | .hbm, ⟨13, _⟩ => ⟨S4x8192x2048, .f32⟩
  | .hbm, ⟨14, _⟩ => ⟨S4x8192x2048, .f32⟩
  | .hbm, ⟨15, _⟩ => ⟨S1x1x2048, .f32⟩
  | .hbm, ⟨16, _⟩ => ⟨S4x8192x2048, .f32⟩
  | .hbm, ⟨17, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)

variable [Facts₀]

class Facts : Prop extends Facts₀ where

variable [Facts]
-- ==== Proof.RmsSpec.lean ====
/-
  Root-mean-square normalisation of the rows of an array, as one function of its arguments.

  For a row `r` of length 2048 with entries `X r k`, let `ss r = ∑ k, X r k * X r k` be the sum of its squares. The
  row's scale is `(ss r / 2048 + ε)^(-1/2)`, with `ε` the single-precision number nearest to 10⁻⁶ (kept as its
  binary word, never evaluated: the same word stands on both sides of every equation below). The normalised
  entry is `X r j * scale r * W j`, the products taken in that order.

  The array is met in two arrangements: as a matrix of 32768 rows, and as 4 stacks of 8192 rows. Row `(b, s)`
  of the second is row `b * 8192 + s` of the first, so an entry of one is an entry of the other
  (`normAt_eq_rmsAt`): only the name of the row changes, not the sum taken along it.
-/
import Idealize.ShloMosaic.PureOps.Ideal
import Idealize.ShloMosaic.Lib.ValueIdx

noncomputable section

namespace Cert.RmsSpec

open Idealize.ShloMosaic Idealize.ShloMosaic.ValueIdx

/-- The scale of a row whose squares sum to `ss`: `(ss / 2048 + ε)^(-1/2)` on the extended reals. -/
def invRms (ss : EReal) : EReal :=
  Ideal.rsqrt (Ideal.div ss (Ideal.ofBits .f32 0x45000000#32) + Ideal.ofBits .f32 0x358637BD#32)

/-- Entry `(r, j)` of the normalised matrix of 32768 rows, the weights given as a matrix of one row. -/
def normAt (X : (⟨2, ![32768, 2048]⟩ : Shape).Idx → EReal) (W : (⟨2, ![1, 2048]⟩ : Shape).Idx → EReal)
    (r : Fin 32768) (j : Fin 2048) : EReal :=
  X (ix2 r j) * invRms (∑ k : Fin 2048, X (ix2 r k) * X (ix2 r k)) * W (ix2 (0 : Fin 1) j)

/-- The normalised matrix. -/
def normRows (X : (⟨2, ![32768, 2048]⟩ : Shape).Idx → EReal) (W : (⟨2, ![1, 2048]⟩ : Shape).Idx → EReal) :
    (⟨2, ![32768, 2048]⟩ : Shape).Idx → EReal := fun i => normAt X W (i 0) (i 1)

/-- Entry `(b, s, j)` of the normalised array of 4 stacks of 8192 rows, the weights given as a vector. -/
def rmsAt (x : (⟨3, ![4, 8192, 2048]⟩ : Shape).Idx → EReal) (w : (⟨1, ![2048]⟩ : Shape).Idx → EReal)
    (b : Fin 4) (s : Fin 8192) (j : Fin 2048) : EReal :=
  x (ix3 b s j) * invRms (∑ k : Fin 2048, x (ix3 b s k) * x (ix3 b s k)) * w (ix1 j)

/-- The normalised array. -/
def rms (x : (⟨3, ![4, 8192, 2048]⟩ : Shape).Idx → EReal) (w : (⟨1, ![2048]⟩ : Shape).Idx → EReal) :
    (⟨3, ![4, 8192, 2048]⟩ : Shape).Idx → EReal := fun i => rmsAt x w (i 0) (i 1) (i 2)

/-- If row `r` of the matrix is row `(b, s)` of the array, entry by entry, and the one-row weight matrix is the
    weight vector, then the two normalised entries along that row agree: the same products of the same sum. -/
theorem normAt_eq_rmsAt (X : (⟨2, ![32768, 2048]⟩ : Shape).Idx → EReal) (W : (⟨2, ![1, 2048]⟩ : Shape).Idx → EReal)
    (x : (⟨3, ![4, 8192, 2048]⟩ : Shape).Idx → EReal) (w : (⟨1, ![2048]⟩ : Shape).Idx → EReal)
    (r : Fin 32768) (b : Fin 4) (s : Fin 8192) (j : Fin 2048)
    (hX : ∀ k : Fin 2048, X (ix2 r k) = x (ix3 b s k)) (hW : W (ix2 (0 : Fin 1) j) = w (ix1 j)) :
    normAt X W r j = rmsAt x w b s j := by
  unfold normAt rmsAt
  rw [hX j, hW]
  simp only [hX]

end Cert.RmsSpec

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Payload.lean ====
/-
  What one grid point computes, read at an entry.

  A grid point holds a block of 1024 rows of the matrix and the one row of weights. It squares the block, sums
  each row's squares, makes the sums a column, divides by 2048, adds ε, takes the inverse square root, repeats the
  column along the 2048 columns, and multiplies the block by it and then by the weight row repeated along the 1024
  rows. At entry `(p, q)` of the block the repeated column reads the column's entry `p`, which is the scale of
  row `p`'s sum of squares, and the repeated row reads the weight `q`: the entry is
  `x (p, q) * scale (∑ k, x (p, k) * x (p, k)) * w (0, q)`.
-/
import proofs.«180372_g76312978916077_feedfinal_358_3_alg».proof.Proof.Gen.KernelIdeal.Skeleton
import proofs.«180372_g76312978916077_feedfinal_358_3_alg».proof.Proof.RmsSpec
import proofs.«180372_g76312978916077_feedfinal_358_3_alg».proof.Proof.LibColumn
import Idealize.ShloMosaic.Lib.ValueLayout
import Idealize.ShloMosaic.PureOps.Ideal.Laws

noncomputable section

namespace Cert.KernelRms

open Cert.KernelIdeal Cert.KernelIdeal.Gen Idealize.ShloMosaic Idealize.ShloMosaic.ValueIdx

/-- The sum over the columns of a block of 1024 rows, started from zero, read at row `p`: the sum of the row's
    2048 entries. -/
theorem rowSum_apply (v : FVec Ideal S1024x2048 .f32) (h : S1024x2048.Reduces [1] S1024) (hφ : FKind.Formats .f32)
    (hacc : (0x00000000#32 : BitVec 32) = 0x00000000#32) (p : Fin 1024) :
    multiReduction .add [1] S1024 v 0x00000000#32 h hφ hacc (ix1 p) = ∑ k : Fin 2048, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- Entry `(p, q)` of what a grid point stores, from its block `x0` and the weight row `x1`. -/
theorem pay_apply (x0 : Vec Ideal S1024x2048 .f32) (x1 : Vec Ideal S1x2048 .f32) (p : Fin 1024) (q : Fin 2048) :
    k0_pay1 (F := Ideal) x0 x1 (ix2 p q)
      = x0 (ix2 p q) * Cert.RmsSpec.invRms (∑ k : Fin 2048, x0 (ix2 p k) * x0 (ix2 p k)) * x1 (ix2 (0 : Fin 1) q) := by
  unfold k0_pay1
  dsimp only
  simp only [shapeCast_self]
  show x0 (ix2 p q) * (broadcastTo S1024x2048 _ Gen.broadcasts_S1024x1_S1024x2048 (ix2 p q))
      * (broadcastTo S1024x2048 x1 Gen.broadcasts_S1x2048_S1024x2048 (ix2 p q)) = _
  rw [broadcastTo_1b_ab_apply, Cert.LibColumn.broadcastTo_a1_ab_apply]
  show x0 (ix2 p q) * Ideal.rsqrt (Ideal.div (shapeCast S1024x1 _ Gen.shapeCasts_S1024_S1024x1 (ix2 p (0 : Fin 1)))
      (Ideal.ofBits .f32 0x45000000#32) + Ideal.ofBits .f32 0x358637BD#32) * x1 (ix2 (0 : Fin 1) q) = _
  rw [Cert.LibColumn.shapeCast_a_a1_apply, rowSum_apply]
  rfl

end Cert.KernelRms

end
-- ==== Proof.Blocks.lean ====
/-
  From the grid points' blocks to the whole matrix.

  The grid has 32 points. Point `t` reads rows `1024 t … 1024 t + 1023` of the input matrix and the one row of
  weights, and writes back the same rows of the output matrix; every column belongs to every block. So row `p` of
  point `t`'s block is row `1024 t + p` of the matrix, on the way in and on the way out, and what the point writes
  back at `(p, q)` is the normalised entry of that row (`flushed_eq`): a row's sum of squares runs along the row,
  which lies whole inside one block. Row `r` of the output is written by point `r / 1024`, so the blocks cover the
  matrix (`cover`) and the output matrix ends as the normalised matrix of the two inputs (`final`).
-/
import proofs.«180372_g76312978916077_feedfinal_358_3_alg».proof.Proof.Gen.KernelIdeal.Frame
import proofs.«180372_g76312978916077_feedfinal_358_3_alg».proof.Proof.Payload
import Idealize.ShloMosaic.Lib.Pipeline.Value

noncomputable section

namespace Cert.KernelRms

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The offsets of a whole-buffer access are all zero. -/
theorem zero_off : (![0, 0] : Fin 2 → Nat) = fun _ => 0 := funext fun a => by fin_cases a <;> rfl

/-- The three index maps over the grid: the input and the output matrix are cut at block row `t`, block column 0; the
    weight row is block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block, as a row of the matrix: `1024 t + p`. -/
def rowOf (t : Fin cfg0.N) (p : Fin 1024) : Fin 32768 :=
  ⟨t.val * 1024 + p.val, by have h : t.val < 32 := lt_of_lt_of_eq t.isLt N_0; have := p.isLt; omega⟩

theorem rowOf_val (t : Fin cfg0.N) (p : Fin 1024) : (rowOf t p).val = t.val * 1024 + p.val := rfl

/-- Entry `(p, k)` of the input block at point `t` sits at `(1024 t + p, k)` of the input matrix. -/
theorem emb_in (t : Fin cfg0.N) (p : Fin 1024) (k : Fin 2048) :
    ((cfg0.win 0).blk t).view.emb (ix2 p k) = ix2 (rowOf t p) k := by
  obtain ⟨e0, e1, -, -, -, -⟩ := idx_facts t
  funext a; apply Fin.ext
  match a with
  | ⟨0, _⟩ => show win0_0.index t (0 : Fin 2) * 1024 + 1 * p.val = t.val * 1024 + p.val; rw [e0]; omega
  | ⟨1, _⟩ => show win0_0.index t (1 : Fin 2) * 2048 + 1 * k.val = k.val; rw [e1]; omega

/-- Entry `(0, q)` of the weight block at any point sits at `(0, q)` of the weight row. -/
theorem emb_w (t : Fin cfg0.N) (q : Fin 2048) :
    ((cfg0.win 1).blk t).view.emb (ix2 (0 : Fin 1) q) = ix2 (0 : Fin 1) q := by
  obtain ⟨-, -, e0, e1, -, -⟩ := idx_facts t
  funext a; apply Fin.ext
  match a with
  | ⟨0, _⟩ => show win0_1.index t (0 : Fin 2) * 1 + 1 * 0 = 0; rw [e0]
  | ⟨1, _⟩ => show win0_1.index t (1 : Fin 2) * 2048 + 1 * q.val = q.val; rw [e1]; omega

/-- Entry `(p, q)` of the output block at point `t` sits at `(1024 t + p, q)` of the output matrix. -/
theorem emb_out (t : Fin cfg0.N) (p : Fin 1024) (q : Fin 2048) :
    ((cfg0.win 2).blk t).view.emb (ix2 p q) = ix2 (rowOf t p) q := by
  obtain ⟨-, -, -, -, e0, e1⟩ := idx_facts t
  funext a; apply Fin.ext
  match a with
  | ⟨0, _⟩ => show win0_2.index t (0 : Fin 2) * 1024 + 1 * p.val = t.val * 1024 + p.val; rw [e0]; omega
  | ⟨1, _⟩ => show win0_2.index t (1 : Fin 2) * 2048 + 1 * q.val = q.val; rw [e1]; omega

/-- The input block at point `t`, read at `(p, k)`: the input matrix at row `1024 t + p`. -/
theorem blk_in_apply (c : Dev nD) (t : Fin cfg0.N) (p : Fin 1024) (k : Fin 2048) :
    iblk m c 0 t (ix2 p k) = V m c main_v0 (ix2 (rowOf t p) k) := by
  show V m c main_v0 (((cfg0.win 0).blk t).view.emb (ix2 p k)) = _
  rw [emb_in]

/-- The weight block at any point, read at `(0, q)`: the weight row at `q`. -/
theorem blk_w_apply (c : Dev nD) (t : Fin cfg0.N) (q : Fin 2048) :
    iblk m c 1 t (ix2 (0 : Fin 1) q) = V m c main_v1 (ix2 (0 : Fin 1) q) := by
  show V m c main_v1 (((cfg0.win 1).blk t).view.emb (ix2 (0 : Fin 1) q)) = _
  rw [emb_w]

/-- The normalised matrix of the two arrays the region reads. -/
def normalised (c : Dev nD) : S32768x2048.Idx → EReal :=
  Cert.RmsSpec.normRows (V m c main_v0) (V m c main_v1)

/-- What point `t` writes back is its block of the normalised matrix. -/
theorem flushed_eq (c : Dev nD) (t : Fin cfg0.N) :
    (dats m 0 c).flushed 2 t = ((cfg0.win 2).blk t).view.read (Elt Ideal) (normalised m c) := by
  show (cfg0.win 2).cut (grid0.coords t) ((dats m 0 c).after 2 t) = _
  rw [after0_2]
  unfold out0_2
  rw [View.canon_unit_zero zero_off]
  simp only [View.ld_unit_zero (S := S1024x2048) zero_off, View.ld_unit_zero (S := S1x2048) zero_off]
  funext y
  obtain ⟨p, q, rfl⟩ : ∃ (p : Fin 1024) (q : Fin 2048), y = ix2 p q := ⟨y 0, y 1, eq_ix2 y⟩
  show k0_pay1 (iblk m c 0 t) (iblk m c 1 t) (ix2 p q) = normalised m c (((cfg0.win 2).blk t).view.emb (ix2 p q))
  refine (pay_apply (iblk m c 0 t) (iblk m c 1 t) p q).trans ?_
  rw [emb_out]
  simp only [blk_in_apply, blk_w_apply]
  rfl

/-- An index of the output matrix is in point `t`'s block iff each coordinate is in the block's range on its axis. -/
theorem mem_blk (t : Fin cfg0.N) (i : S32768x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v2).slice (win0_2.rect t)).set ↔ _
  rw [View.set_slice_whole, Rect.mem_set_unit]
  exact Iff.rfl

/-- Every entry of the output matrix is written back by some point: row `r` by point `r / 1024`. -/
theorem cover (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  have hN : cfg0.N = 32 := N_0
  obtain ⟨t, ht⟩ : ∃ t : Fin cfg0.N, t.val = (i 0).val / 1024 := ⟨⟨(i 0).val / 1024, by rw [hN]; omega⟩, rfl⟩
  refine ⟨t, flush0_2 t, ?_⟩
  rw [mem_blk]
  obtain ⟨-, -, -, -, e0, e1⟩ := idx_facts t
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 2048 ≤ (i 1).val ∧ (i 1).val < win0_2.index t (1 : Fin 2) * 2048 + 2048
    rw [e1]; omega

/-- The output matrix after the last point is the normalised matrix of the two arrays the region reads. -/
theorem final (c : Dev nD) : (dats m 0 c).arrAt 2 cfg0.N = normalised m c :=
  (dats m 0 c).arrAt_eq_of_cover 2 (normalised m c) (fun t _ => flushed_eq m c t) cover

end Cert.KernelRms

end
-- ==== Proof.LibFlatten.lean ====
/-
  Merging and splitting the two leading axes of an array.

  An array of shape `[a, b, c]` and a matrix of shape `[n, c]` with `n = a * b` hold the same entries in the same
  row-major order: row `i * b + j` of the matrix is row `(i, j)` of the array.
  * The array cast to the matrix reads, at `(r, k)` with `r = i * b + j`, the array's entry `(i, j, k)`.
  * The matrix cast to the array reads, at `(i, j, k)`, the matrix's entry `(r, k)` with `r = i * b + j`.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` reads, at row `r = i * b + j` and column `k`, the array at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix cast to `[a, b, c]` reads, at `(i, j, k)`, the matrix at row `r = i * b + j` and column `k`. -/
theorem shapeCast_nc_abc_apply {a b c n : ℕ} (X : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ X h (ix3 i j k) = X (ix2 r k) :=
  shapeCast_apply X h _ _ (by
    rw [Shape.rowMajor_val_three, Shape.rowMajor_val_two]
    show r.val * c + k.val = (i.val * b + j.val) * c + k.val
    rw [hr])

end Cert.LibFlatten

end
-- ==== Proof.KernelValue.lean ====
/-
  The kernel program's result is the normalised array.

  Before the grid runs, the program merges the two leading axes of the first argument, giving the matrix of 32768
  rows, and makes the weight vector a matrix of one row. After the grid it splits the rows of the output matrix back
  into 4 stacks of 8192. Row `(b, s)` of the argument is row `8192 b + s` of the matrix and row `8192 b + s` of the
  output matrix is row `(b, s)` of the result, so the result's entry `(b, s, j)` is the normalised entry of the
  argument's row `(b, s)` at column `j` with weight `j`.
-/
import proofs.«180372_g76312978916077_feedfinal_358_3_alg».proof.Proof.Blocks
import proofs.«180372_g76312978916077_feedfinal_358_3_alg».proof.Proof.LibFlatten
import Idealize.ShloMosaic.Lib.ValueLayout
import Idealize.ShloMosaic.Lib.StableHlo.Run

noncomputable section

namespace Cert.KernelRms

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The matrix the grid reads is the first argument with its two leading axes merged. -/
theorem V_main_v0 (c : Dev nD) : (V m c main_v0 : S32768x2048.Idx → EReal)
    = shapeCast S32768x2048 (m ((c : Thread nD τ).loc main_arg0)) Gen.shapeCasts_S4x8192x2048_S32768x2048 := by
  show StableHlo.after hostOps0 (fun b => m (c, b)) (Proc.devRef .tc main_v0) = _
  after_results
  rfl

/-- The weight row the grid reads is the second argument as a matrix of one row. -/
theorem V_main_v1 (c : Dev nD) : (V m c main_v1 : S1x2048.Idx → EReal)
    = shapeCast S1x2048 (m ((c : Thread nD τ).loc main_arg1)) Gen.shapeCasts_S2048_S1x2048 := by
  show StableHlo.after hostOps0 (fun b => m (c, b)) (Proc.devRef .tc main_v1) = _
  after_results
  rfl

/-- The program's result is the output matrix after the grid with its rows split into 4 stacks of 8192. -/
theorem tail_eq (c : Dev nD) :
    (Pipeline.afterTail₀ cfgs (dats m) 0 (V0 m) [hostOps1] c main_v3 : S4x8192x2048.Idx → EReal)
      = shapeCast S4x8192x2048 (normalised m c) Gen.shapeCasts_S32768x2048_S4x8192x2048 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = normalised m c :=
    (Pipeline.withArrays_arr spec0 launch0.win.arr_inj c (V0 m c) (fun w => (dats m 0 c).arrAt w cfg0.N) 2).trans (final m c)
  exact congrArg (fun X => shapeCast S4x8192x2048 X Gen.shapeCasts_S32768x2048_S4x8192x2048) hw

/-- Entry `(b, s, j)` of the split normalised matrix is the normalised entry of the arguments. -/
theorem result_eq (c : Dev nD) :
    shapeCast S4x8192x2048 (normalised m c) Gen.shapeCasts_S32768x2048_S4x8192x2048
      = Cert.RmsSpec.rms (m ((c : Thread nD τ).loc main_arg0)) (m ((c : Thread nD τ).loc main_arg1)) := by
  funext i
  obtain ⟨b, s, j, rfl⟩ : ∃ (b : Fin 4) (s : Fin 8192) (j : Fin 2048), i = ix3 b s j := ⟨i 0, i 1, i 2, eq_ix3 i⟩
  obtain ⟨r, hr⟩ : ∃ r : Fin 32768, r.val = b.val * 8192 + s.val :=
    ⟨⟨b.val * 8192 + s.val, by have := b.isLt; have := s.isLt; omega⟩, rfl⟩
  refine (Cert.LibFlatten.shapeCast_nc_abc_apply (normalised m c) _ b s j r hr).trans ?_
  show Cert.RmsSpec.normAt (V m c main_v0) (V m c main_v1) r j = Cert.RmsSpec.rmsAt _ _ b s j
  refine Cert.RmsSpec.normAt_eq_rmsAt _ _ _ _ r b s j (fun k => ?_) ?_
  · rw [V_main_v0]; exact Cert.LibFlatten.shapeCast_abc_nc_apply _ _ b s k r hr
  · rw [V_main_v1]; exact shapeCast_a_1a_apply _ _ (0 : Fin 1) j

/-- Every weakly fair execution of the kernel program ends with its result at the normalised array of its two
    arguments, and the arguments as they were. -/
theorem run : θ_run defs (onTc (τ := τ) (main (F := Ideal))) ⟨m, fun _ => 0, ρ⟩ fun r => ∀ c : Dev nD,
      r.2.mem ((c : Thread nD τ).loc main_v3)
        = Cert.RmsSpec.rms (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans
        ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelRms

end
-- ==== Proof.RefRms.lean ====
/-
  The reference program computes the normalised array.

  Read index by index, the reference squares the array, sums the squares along the last axis starting from zero,
  divides by 2048, adds ε, takes the inverse square root, and multiplies the array by it and then by the weights,
  each broadcast to the array's shape. At entry `(b, s, j)` every broadcast reads its operand along row `(b, s)`
  or at column `j`, and the sum from zero is the sum: that is `RmsSpec.rmsAt`.
-/
import proofs.«180372_g76312978916077_feedfinal_358_3_alg».proof.Proof.Gen.ReferenceIdeal.Read
import proofs.«180372_g76312978916077_feedfinal_358_3_alg».proof.Proof.RmsSpec

noncomputable section

namespace Cert.RefRms

open Cert.ReferenceIdeal Cert.ReferenceIdeal.Read Idealize.ShloMosaic Idealize.ShloMosaic.ValueIdx

/-- The sum's index at `(b, s)` and `k`, followed back through the two broadcasts from `(b, s, j)`, is `(b, s, k)`. -/
theorem row_idx (b : Fin 4) (s : Fin 8192) (j k : Fin 2048) :
    idx_main_v1 (idx_main_v2 (idx_main_v8 (ix3 b s j))) k = ix3 b s k :=
  funext fun a => Fin.ext (by match a with | ⟨0, _⟩ => rfl | ⟨1, _⟩ => rfl | ⟨2, _⟩ => rfl)

/-- The weight's index, followed back through its two broadcasts from `(b, s, j)`, is `j`. -/
theorem col_idx (b : Fin 4) (s : Fin 8192) (j : Fin 2048) :
    idx_main_v10 (idx_main_v11 (ix3 b s j)) = ix1 j :=
  funext fun a => Fin.ext (by match a with | ⟨0, _⟩ => rfl)

/-- The reference's result is the normalised array of its two arguments. -/
theorem result_eq (x0 : (⟨S4x8192x2048, .f32⟩ : BufTy).Contents (Elt Ideal)) (x1 : (⟨S2048, .f32⟩ : BufTy).Contents (Elt Ideal)) :
    val_main_v12 (F := Ideal) x0 x1 = Cert.RmsSpec.rms x0 x1 := by
  funext i
  obtain ⟨b, s, j, rfl⟩ : ∃ (b : Fin 4) (s : Fin 8192) (j : Fin 2048), i = ix3 b s j := ⟨i 0, i 1, i 2, eq_ix3 i⟩
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply, row_idx, col_idx,
    Ideal.mulf_def, Ideal.addf_def, Ideal.hostDivf_def, Ideal.hostUnary_rsqrt_def, Ideal.ofBits_def, Ideal.ofBits_zero_f32, zero_add]
  rfl

end Cert.RefRms

end
-- ==== Proof.lean ====
/-
  Root-mean-square normalisation of the rows of a `[4, 8192, 2048]` array: the kernel program and the reference
  program compute the same array on the extended reals.

  Both compute, at entry `(b, s, j)`, the product `x (b, s, j) * (ss / 2048 + ε)^(-1/2) * w j`, where `ss` is the sum of
  the squares of row `(b, s)` and `ε` is the same single-precision constant on both sides (`RmsSpec.rms`).
  * The reference does so directly on the array (`RefRms.result_eq`, over its run read operation by operation).
  * The kernel program merges the two leading axes, normalises the 32768 rows in 32 blocks of 1024 rows — a row and
    its sum of squares lie inside one block —, and splits the rows again (`KernelRms.run`).
  No law of arithmetic is needed beyond reading the same sum along the same row, so the inputs' finiteness is never
  used. The three programs run and leave their arguments unchanged by their generated frames and the reference's
  generated run; the kernel program on the extended reals is the word-level program's own text read there, with
  nothing rewritten, so the conjunct relating the two is `True`.
-/
import proofs.«180372_g76312978916077_feedfinal_358_3_alg».proof.Defs
import proofs.«180372_g76312978916077_feedfinal_358_3_alg».proof.Proof.Gen.Kernel
import proofs.«180372_g76312978916077_feedfinal_358_3_alg».proof.Proof.Gen.Kernel.Frame
import proofs.«180372_g76312978916077_feedfinal_358_3_alg».proof.Proof.Gen.KernelIdeal
import proofs.«180372_g76312978916077_feedfinal_358_3_alg».proof.Proof.Gen.KernelIdeal.Frame
import proofs.«180372_g76312978916077_feedfinal_358_3_alg».proof.Proof.Gen.ReferenceIdeal
import proofs.«180372_g76312978916077_feedfinal_358_3_alg».proof.Proof.Gen.Pre_finite_inputs
import proofs.«180372_g76312978916077_feedfinal_358_3_alg».proof.Proof.Gen.ReferenceIdeal.Run
import proofs.«180372_g76312978916077_feedfinal_358_3_alg».proof.Proof.Gen.ReferenceIdeal.Read
import proofs.«180372_g76312978916077_feedfinal_358_3_alg».proof.Proof.KernelValue
import proofs.«180372_g76312978916077_feedfinal_358_3_alg».proof.Proof.RefRms
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The kernel program on the extended reals runs and keeps its arguments. -/
theorem frame_kernelIdeal : Cert.frame_KernelIdeal := fun m ρ _ => Cert.KernelIdeal.Gen.frame m ρ

/-- The reference program runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the normalised array of those arguments. -/
theorem algebraic : Cert.algebraic_KernelIdeal_ReferenceIdeal := by
  intro m ρ m' ρ' _ hagree
  refine ⟨fun c => Cert.RmsSpec.rms (m ((c : Thread Cert.KernelIdeal.nD Cert.KernelIdeal.τ).loc Cert.KernelIdeal.main_arg0))
      (m ((c : Thread Cert.KernelIdeal.nD Cert.KernelIdeal.τ).loc Cert.KernelIdeal.main_arg1)), Cert.KernelRms.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RefRms.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
